-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x64 : Shape := ⟨2, ![100000, 64]⟩
abbrev S10000x16 : Shape := ⟨2, ![10000, 16]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 105
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S100000, .f32⟩
  | .hbm, ⟨15, _⟩ => ⟨S_, .f32⟩
  | .hbm, ⟨16, _⟩ => ⟨S3300000, .f32⟩
  | .hbm, ⟨17, _⟩ => ⟨S_, .i32⟩
  | .hbm, ⟨18, _⟩ => ⟨S3300000, .i32⟩
  | .hbm, ⟨19, _⟩ => ⟨S3300000, .i1⟩
  | .hbm, ⟨20, _⟩ => ⟨S_, .i32⟩
  | .hbm, ⟨21, _⟩ => ⟨S3300000, .i32⟩
  | .hbm, ⟨22, _⟩ => ⟨S3300000, .i32⟩
  | .hbm, ⟨23, _⟩ => ⟨S3300000, .i32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S100000x16, .f32⟩
  | .hbm, ⟨54, _⟩ => ⟨S3300000x1, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x16, .f32⟩
  | .hbm, ⟨64, _⟩ => ⟨S3300000x16, .f32⟩
  | .hbm, ⟨65, _⟩ => ⟨S3300000x16, .f32⟩
  | .hbm, ⟨66, _⟩ => ⟨S_, .f32⟩
  | .hbm, ⟨67, _⟩ => ⟨S100000x16, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S100000x16, .f32⟩
  | .hbm, ⟨77, _⟩ => ⟨S1x16, .f32⟩
  | .hbm, ⟨78, _⟩ => ⟨S100000x64, .f32⟩
  | .hbm, ⟨79, _⟩ => ⟨S3300000x1, .f32⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S3300000x64, .f32⟩
  | .hbm, ⟨89, _⟩ => ⟨S3300000x64, .f32⟩
  | .hbm, ⟨90, _⟩ => ⟨S3300000x64, .f32⟩
  | .hbm, ⟨91, _⟩ => ⟨S_, .f32⟩
  | .hbm, ⟨92, _⟩ => ⟨S100000x64, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x64, .f32⟩
  | .local _ .vmem, ⟨9, _⟩ => ⟨S10000x64, .f32⟩
  | .local _ .vmem, ⟨10, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x64_S10000x64_1_0_0_1_n_n_wf : DotDims.WF S10000x16 S16x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 150
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x64, .f32⟩
  | 5 => ⟨S64, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S100000, .f32⟩
  | 16 => ⟨S_, .f32⟩
  | 17 => ⟨S3300000, .f32⟩
  | 18 => ⟨S_, .i32⟩
  | 19 => ⟨S3300000, .i32⟩
  | 20 => ⟨S3300000, .i1⟩
  | 21 => ⟨S_, .i32⟩
  | 22 => ⟨S3300000, .i32⟩
  | 23 => ⟨S3300000, .i32⟩
  | 24 => ⟨S3300000, .i32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S3300000x1, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x16, .f32⟩
  | 65 => ⟨S3300000x16, .f32⟩
  | 66 => ⟨S_, .f32⟩
  | 67 => ⟨S100000x16, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S100000x16, .f32⟩
  | 77 => ⟨S1x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S100000x64, .f32⟩
  | 84 => ⟨S_, .f32⟩
  | 85 => ⟨S100000, .f32⟩
  | 86 => ⟨S_, .f32⟩
  | 87 => ⟨S3300000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000, .f32⟩
  | 123 => ⟨S3300000, .f32⟩
  | 124 => ⟨S3300000x1, .f32⟩
  | 125 => ⟨S_, .i32⟩
  | 126 => ⟨S3300000, .i32⟩
  | 127 => ⟨S3300000, .i1⟩
  | _ => ⟨S100000x512, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x64, .f32⟩
  | 6 => ⟨S3300000x64, .f32⟩
  | 7 => ⟨S3300000x64, .f32⟩
  | 8 => ⟨S_, .f32⟩
  | 9 => ⟨S100000x64, .f32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S100000x64, .f32⟩
  | 19 => ⟨S1x64, .f32⟩
  | 20 => ⟨S100000x64, .f32⟩
  | 21 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_c_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_18 : Ref sig .tc := ⟨.hbm, 101, rfl⟩
abbrev main_call2_v0 : Ref sig .tc := ⟨.hbm, 102, rfl⟩
abbrev main_call2_v1 : Ref sig .tc := ⟨.hbm, 103, rfl⟩
abbrev main_v71 : Ref sig .tc := ⟨.hbm, 104, rfl⟩
abbrev main_c_19 : Ref sig .tc := ⟨.hbm, 105, rfl⟩
abbrev main_v72 : Ref sig .tc := ⟨.hbm, 106, rfl⟩
abbrev main_v73 : Ref sig .tc := ⟨.hbm, 107, rfl⟩
abbrev main_c_20 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_21 : Ref sig .tc := ⟨.hbm, 114, rfl⟩
abbrev main_v79 : Ref sig .tc := ⟨.hbm, 115, rfl⟩
abbrev main_v80 : Ref sig .tc := ⟨.hbm, 116, rfl⟩
abbrev main_c_22 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_23 : Ref sig .tc := ⟨.hbm, 125, rfl⟩
abbrev main_v88 : Ref sig .tc := ⟨.hbm, 126, rfl⟩
abbrev main_v89 : Ref sig .tc := ⟨.hbm, 127, rfl⟩
abbrev main_c_24 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_25 : Ref sig .tc := ⟨.hbm, 136, rfl⟩
abbrev main_v97 : Ref sig .tc := ⟨.hbm, 137, rfl⟩
abbrev main_c_26 : Ref sig .tc := ⟨.hbm, 138, rfl⟩
abbrev main_v98 : Ref sig .tc := ⟨.hbm, 139, rfl⟩
abbrev main_v99 : Ref sig .tc := ⟨.hbm, 140, rfl⟩
abbrev main_c_27 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The idealized kernel program's run with its RESULT named.

  The program is seven segments: three stretches of host operations, the first matrix-product region, a
  stretch, the second region, a last stretch. Every weakly fair execution walks them in order, and at the end
  every buffer that outlives the regions holds the last boundary's contents — the fold `Gen.W7` of the host
  operations and the regions' write-backs over the launch memory. The frame claim reads only the argument
  arrays out of that final state; here the result buffer is read out of it as well, so that the value of the
  program is `Gen.W7 m ρ c` at the result's reference, a pure term the later modules evaluate stage by stage.
-/
import proofs.«160368_j5574867550498_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched: the segments' run, the final state read at every
    buffer that outlives the regions, the result's among them. -/
theorem run_out : θ_run defs (onTc (τ := τ) (main (F := F))) ⟨m, fun _ => 0, ρ⟩ (fun r => ∀ c : Dev nD,
      r.2.mem ((c.tc : Thread nD τ).loc main_v76) = W7 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v76 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunOut

end
-- ==== Proof.Gcn.lean ====
/-
  The graph convolution both programs compute, written once as functions of the argument arrays.

  With `src` and `dst` the two rows of the edge list followed by the self loops `0 … n-1`, every node index
  wrapped once into `[0, n)`:
    deg   = the number of edges arriving at each node            (a scatter-add of ones)
    dinv  = deg^(-1/2) where deg > 0, else 0
    norm  = dinv[src] · dinv[dst]                                 (one weight per edge)
    propagate h = the scatter-add into dst of norm · h[src]       (one row per edge)
  and the network is  propagate (relu (propagate (x · W1) + b1) · W2) + b2.
  Everything here is a composition of the host operations as the reference program prints them; the only
  statements made about it elsewhere are that each program's result is this term.
-/
import proofs.«160368_j5574867550498_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- Row `r` of the edge list (`r = 0`: sources, `r = 1`: targets) followed by the self loops `0 … n-1`. -/
def srcOf (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

def dstOf (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A list of node indices as the index column a gather or scatter takes: a negative index wrapped by `n`. -/
def col (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The in-degree of every node, self loops included. -/
def deg (d : (⟨S3300000, .i32⟩ : BufTy).Contents (Elt F)) : (⟨S100000, .f32⟩ : BufTy).Contents (Elt F) :=
  Host.scatterAdd (F := F) scatter_S100000_S3300000x1_S3300000_n_0_0_1
    (broadcastInDim S100000 ![] bcast_S_S100000 (constant (F := F) S_ .f32 0x00000000#32)) (col d)
    (broadcastInDim S3300000 ![] bcast_S_S3300000 (constant (F := F) S_ .f32 0x3F800000#32))

/-- `deg^(-1/2)` where the degree is positive, `0` elsewhere. -/
def dinv (d : (⟨S3300000, .i32⟩ : BufTy).Contents (Elt F)) : (⟨S100000, .f32⟩ : BufTy).Contents (Elt F) :=
  select (cmpf (F := F) .ogt (deg d) (broadcastInDim S100000 ![] bcast_S_S100000 (constant (F := F) S_ .f32 0x00000000#32)))
    (Host.rsqrt (F := F) (deg d)) (broadcastInDim S100000 ![] bcast_S_S100000 (id (constant (F := F) S_ .f32 0x00000000#32)))

/-- The weight of every edge: `dinv[src] · dinv[dst]`. -/
def norm (s d : (⟨S3300000, .i32⟩ : BufTy).Contents (Elt F)) : (⟨S3300000, .f32⟩ : BufTy).Contents (Elt F) :=
  mulf (Host.gather gather_S100000_S3300000x1_S3300000_n_0_n_n_0_1_1 (dinv d) (col s))
    (Host.gather gather_S100000_S3300000x1_S3300000_n_0_n_n_0_1_1 (dinv d) (col d))

/-- One propagation of 16-wide node features: row `dst` collects `norm · h[src]` over the edges. -/
def prop16 (w : (⟨S3300000, .f32⟩ : BufTy).Contents (Elt F)) (s d : (⟨S3300000, .i32⟩ : BufTy).Contents (Elt F))
    (h : (⟨S100000x16, .f32⟩ : BufTy).Contents (Elt F)) : (⟨S100000x16, .f32⟩ : BufTy).Contents (Elt F) :=
  Host.scatterAdd (F := F) scatter_S100000x16_S3300000x1_S3300000x16_1_0_0_1
    (broadcastInDim S100000x16 ![] bcast_S_S100000x16 (constant (F := F) S_ .f32 0x00000000#32)) (col d)
    (mulf (broadcastInDim S3300000x16 ![0, 1] bcast_S3300000x1_S3300000x16_0_1 (broadcastInDim S3300000x1 ![0] bcast_S3300000_S3300000x1_0 w))
      (Host.gather gather_S100000x16_S3300000x1_S3300000x16_1_0_n_n_0_1_116 h (col s)))

/-- One propagation of 64-wide node features. -/
def prop64 (w : (⟨S3300000, .f32⟩ : BufTy).Contents (Elt F)) (s d : (⟨S3300000, .i32⟩ : BufTy).Contents (Elt F))
    (h : (⟨S100000x64, .f32⟩ : BufTy).Contents (Elt F)) : (⟨S100000x64, .f32⟩ : BufTy).Contents (Elt F) :=
  Host.scatterAdd (F := F) scatter_S100000x64_S3300000x1_S3300000x64_1_0_0_1
    (broadcastInDim S100000x64 ![] bcast_S_S100000x64 (constant (F := F) S_ .f32 0x00000000#32)) (col d)
    (mulf (broadcastInDim S3300000x64 ![0, 1] bcast_S3300000x1_S3300000x64_0_1 (broadcastInDim S3300000x1 ![0] bcast_S3300000_S3300000x1_0 w))
      (Host.gather gather_S100000x64_S3300000x1_S3300000x64_1_0_n_n_0_1_164 h (col s)))

/-- The hidden layer's activation: `relu (a + b1)`, the bias repeated along the rows. -/
def hidden (a : (⟨S100000x16, .f32⟩ : BufTy).Contents (Elt F)) (b1 : (⟨S16, .f32⟩ : BufTy).Contents (Elt F)) :
    (⟨S100000x16, .f32⟩ : BufTy).Contents (Elt F) :=
  maximumf (addf a (broadcastInDim S100000x16 ![0, 1] bcast_S1x16_S100000x16_0_1 (broadcastInDim S1x16 ![1] bcast_S16_S1x16_1 b1)))
    (broadcastInDim S100000x16 ![] bcast_S_S100000x16 (constant (F := F) S_ .f32 0x00000000#32))

/-- The last step: the propagated output features plus the output bias. -/
def output (w : (⟨S3300000, .f32⟩ : BufTy).Contents (Elt F)) (s d : (⟨S3300000, .i32⟩ : BufTy).Contents (Elt F))
    (h2 : (⟨S100000x64, .f32⟩ : BufTy).Contents (Elt F)) (b2 : (⟨S64, .f32⟩ : BufTy).Contents (Elt F)) :
    (⟨S100000x64, .f32⟩ : BufTy).Contents (Elt F) :=
  addf (prop64 w s d h2) (broadcastInDim S100000x64 ![0, 1] bcast_S1x64_S100000x64_0_1 (broadcastInDim S1x64 ![1] bcast_S64_S1x64_1 b2))

/-- The whole network from the two matrix products' results `h1 = x · W1` and, through `mm2`, `relu (…) · W2`. -/
def network (e : (⟨S2x3200000, .i32⟩ : BufTy).Contents (Elt F)) (h1 : (⟨S100000x16, .f32⟩ : BufTy).Contents (Elt F))
    (b1 : (⟨S16, .f32⟩ : BufTy).Contents (Elt F))
    (mm2 : (⟨S100000x16, .f32⟩ : BufTy).Contents (Elt F) → (⟨S100000x64, .f32⟩ : BufTy).Contents (Elt F))
    (b2 : (⟨S64, .f32⟩ : BufTy).Contents (Elt F)) : (⟨S100000x64, .f32⟩ : BufTy).Contents (Elt F) :=
  output (norm (srcOf e) (dstOf e)) (srcOf e) (dstOf e)
    (mm2 (hidden (prop16 (norm (srcOf e) (dstOf e)) (srcOf e) (dstOf e) h1) b1)) b2

/-- The first layer's matrix product `x · W1`, as the host computes it. -/
def mm1 (x : (⟨S100000x512, .f32⟩ : BufTy).Contents (Elt F)) (w : (⟨S512x16, .f32⟩ : BufTy).Contents (Elt F)) :
    (⟨S100000x16, .f32⟩ : BufTy).Contents (Elt F) :=
  Host.dotGeneral (F := F) dot_S100000x512_S512x16_S100000x16_1_0_0_1_n_n none x w

/-- The second layer's matrix product `a · W2`, as the host computes it. -/
def mm2 (a : (⟨S100000x16, .f32⟩ : BufTy).Contents (Elt F)) (w : (⟨S16x64, .f32⟩ : BufTy).Contents (Elt F)) :
    (⟨S100000x64, .f32⟩ : BufTy).Contents (Elt F) :=
  Host.dotGeneral (F := F) dot_S100000x16_S16x64_S100000x64_1_0_0_1_n_n none a w

/-- The two-layer network of the six argument arrays. -/
def model (x : (⟨S100000x512, .f32⟩ : BufTy).Contents (Elt F)) (e : (⟨S2x3200000, .i32⟩ : BufTy).Contents (Elt F))
    (w1 : (⟨S512x16, .f32⟩ : BufTy).Contents (Elt F)) (b1 : (⟨S16, .f32⟩ : BufTy).Contents (Elt F))
    (w2 : (⟨S16x64, .f32⟩ : BufTy).Contents (Elt F)) (b2 : (⟨S64, .f32⟩ : BufTy).Contents (Elt F)) :
    (⟨S100000x64, .f32⟩ : BufTy).Contents (Elt F) :=
  network e (mm1 x w1) b1 (fun a => mm2 a w2) b2

end Cert.Gcn

end
-- ==== Proof.KernelStages.lean ====
/-
  The host side of the idealized kernel program, one stretch of host operations at a time.

  Between the launch and the first matrix-product region the program builds, from the edge list alone, the two
  endpoint lists (with the self loops appended) and the edge weights; between the two regions it propagates the
  first product's result along the edges and re-lays the hidden bias as a one-row matrix; after the second region
  it propagates that region's result and adds the output bias. Each lemma below reads ONE buffer after ONE
  stretch, from arbitrary contents `W` before it, as the corresponding function of module `Gcn` applied to the
  contents the stretch reads — or as the contents unchanged, for a buffer the stretch does not write.
-/
import proofs.«160368_j5574867550498_1_alg».proof.Proof.Gen.KernelIdeal.Launch
import proofs.«160368_j5574867550498_1_alg».proof.Proof.Gcn
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-! ## From the launch to the first region -/

/-- The source endpoints: row 0 of the edge list, then the self loops. -/
theorem first_src : after hostOps0_2 (after hostOps0_1 (after hostOps0 W)) (Proc.devRef .tc main_v3)
    = Cert.Gcn.srcOf (F := F) (W (Proc.devRef .tc main_arg1)) := by
  after_results; rfl

/-- The target endpoints: row 1 of the edge list, then the self loops. -/
theorem first_dst : after hostOps0_2 (after hostOps0_1 (after hostOps0 W)) (Proc.devRef .tc main_v6)
    = Cert.Gcn.dstOf (F := F) (W (Proc.devRef .tc main_arg1)) := by
  after_results; rfl

set_option maxHeartbeats 4000000 in
/-- The edge weights `dinv[src] · dinv[dst]`. -/
theorem first_norm : after hostOps0_2 (after hostOps0_1 (after hostOps0 W)) (Proc.devRef .tc main_v34)
    = Cert.Gcn.norm (F := F) (Cert.Gcn.srcOf (F := F) (W (Proc.devRef .tc main_arg1))) (Cert.Gcn.dstOf (F := F) (W (Proc.devRef .tc main_arg1))) := by
  after_results_simp <;> rfl

/-- The first region's two argument arrays reach it as launched. -/
theorem first_keeps_x : after hostOps0_2 (after hostOps0_1 (after hostOps0 W)) (Proc.devRef .tc main_arg0) = W (Proc.devRef .tc main_arg0) := by
  after_results_simp <;> rfl
theorem first_keeps_w1 : after hostOps0_2 (after hostOps0_1 (after hostOps0 W)) (Proc.devRef .tc main_arg2) = W (Proc.devRef .tc main_arg2) := by
  after_results_simp <;> rfl
/-- So do the arrays only later stretches read. -/
theorem first_keeps_b1 : after hostOps0_2 (after hostOps0_1 (after hostOps0 W)) (Proc.devRef .tc main_arg3) = W (Proc.devRef .tc main_arg3) := by
  after_results_simp <;> rfl
theorem first_keeps_w2 : after hostOps0_2 (after hostOps0_1 (after hostOps0 W)) (Proc.devRef .tc main_arg4) = W (Proc.devRef .tc main_arg4) := by
  after_results_simp <;> rfl
theorem first_keeps_b2 : after hostOps0_2 (after hostOps0_1 (after hostOps0 W)) (Proc.devRef .tc main_arg5) = W (Proc.devRef .tc main_arg5) := by
  after_results_simp <;> rfl

/-! ## Between the two regions -/

set_option maxHeartbeats 4000000 in
/-- The first propagation: the first region's result `h1` (buffer `main_v35`) gathered at the sources, scaled by
    the edge weights and summed into the targets. -/
theorem second_agg : after hostOps1 W (Proc.devRef .tc main_v53)
    = Cert.Gcn.prop16 (F := F) (W (Proc.devRef .tc main_v34)) (W (Proc.devRef .tc main_v3)) (W (Proc.devRef .tc main_v6)) (W (Proc.devRef .tc main_v35)) := by
  after_results_simp <;> rfl

/-- The hidden bias re-laid as a one-row matrix. -/
theorem second_bias : after hostOps1 W (Proc.devRef .tc main_v54)
    = shapeCast S1x16 (W (Proc.devRef .tc main_arg3)) shapeCasts_S16_S1x16 := by
  after_results_simp <;> rfl

/-- What the stretch leaves alone. -/
theorem second_keeps_norm : after hostOps1 W (Proc.devRef .tc main_v34) = W (Proc.devRef .tc main_v34) := by
  after_results_simp <;> rfl
theorem second_keeps_src : after hostOps1 W (Proc.devRef .tc main_v3) = W (Proc.devRef .tc main_v3) := by
  after_results_simp <;> rfl
theorem second_keeps_dst : after hostOps1 W (Proc.devRef .tc main_v6) = W (Proc.devRef .tc main_v6) := by
  after_results_simp <;> rfl
theorem second_keeps_w2 : after hostOps1 W (Proc.devRef .tc main_arg4) = W (Proc.devRef .tc main_arg4) := by
  after_results_simp <;> rfl
theorem second_keeps_b2 : after hostOps1 W (Proc.devRef .tc main_arg5) = W (Proc.devRef .tc main_arg5) := by
  after_results_simp <;> rfl

/-! ## After the second region -/

set_option maxHeartbeats 4000000 in
/-- The second propagation, of the second region's result `h2` (buffer `main_v55`), plus the output bias. -/
theorem third_out : after hostOps2 W (Proc.devRef .tc main_v76)
    = Cert.Gcn.output (F := F) (W (Proc.devRef .tc main_v34)) (W (Proc.devRef .tc main_v3)) (W (Proc.devRef .tc main_v6)) (W (Proc.devRef .tc main_v55)) (W (Proc.devRef .tc main_arg5)) := by
  after_results_simp <;> rfl

end Cert.KernelIdeal.Stages

end
-- ==== Proof.RegionOne.lean ====
/- The first matrix product of the kernel program, as one function of its two argument arrays.

   The program's first region multiplies a 100000×512 array by a 512×16 array in 20 steps: step `t` loads rows
   5000·t … 5000·t + 4999 of the left operand and the whole right operand, narrows both to a 16-bit format (the
   identity on the ideal values), multiplies them into a zero accumulator, and writes the 5000×16 result back as
   rows 5000·t … of the output. Here: the body's payload read at an entry (`payload_apply`: a row times a column,
   summed over the 512 contracted positions), each step's blocks as parts of the arrays (`leftBlock_apply`,
   `rightBlock_apply`), what a step writes back as a block of the whole product (`flushed_eq`), the 20 blocks
   covering the output (`covered`), and so the output array after the region (`arr_eq`, `arr_out`). Everything is
   stated at any contents `V` of the buffers when the region is entered. -/
import proofs.«160368_j5574867550498_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionOne

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

/-- On the rows' axis the left operand's index is the output row. -/
theorem lhsIdx_row (i : S5000x16.Idx) (κ : dot_S5000x512_S512x16_S5000x16_1_0_0_1_n_n.contr.Idx) :
    (dot_S5000x512_S512x16_S5000x16_1_0_0_1_n_n.lhsIdx i κ 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
/-- On the contracted axis it is the contraction position. -/
theorem lhsIdx_contr (i : S5000x16.Idx) (κ : dot_S5000x512_S512x16_S5000x16_1_0_0_1_n_n.contr.Idx) :
    (dot_S5000x512_S512x16_S5000x16_1_0_0_1_n_n.lhsIdx i κ 1).val = (κ ⟨0, by decide⟩).val :=
  dot_S5000x512_S512x16_S5000x16_1_0_0_1_n_n.lhsIdx_val_of_single rfl i κ
/-- The right operand's index is the contraction position on its rows' axis … -/
theorem rhsIdx_contr (i : S5000x16.Idx) (κ : dot_S5000x512_S512x16_S5000x16_1_0_0_1_n_n.contr.Idx) :
    (dot_S5000x512_S512x16_S5000x16_1_0_0_1_n_n.rhsIdx i κ 0).val = (κ ⟨0, by decide⟩).val :=
  dot_S5000x512_S512x16_S5000x16_1_0_0_1_n_n.rhsIdx_val_of_single rfl i κ
/-- … and the output column on its columns' axis. -/
theorem rhsIdx_col (i : S5000x16.Idx) (κ : dot_S5000x512_S512x16_S5000x16_1_0_0_1_n_n.contr.Idx) :
    (dot_S5000x512_S512x16_S5000x16_1_0_0_1_n_n.rhsIdx i κ 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- THE BODY'S PAYLOAD AT AN ENTRY: the block's row times the matrix's column, summed over the 512 contracted positions. -/
theorem payload_apply (x0 : Vec Ideal S5000x512 .f32) (x1 : Vec Ideal S512x16 .f32) (r : Fin 5000) (q : Fin 16) :
    k0_pay1 (F := Ideal) x0 x1 (ix2 r q) = ∑ k : Fin 512, (x0 (ix2 r k) : EReal) * (x1 (ix2 k q) : EReal) := by
  unfold k0_pay1
  simp only [matmul]
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx (ix2 r q) ((ValueIdx.contrEquiv1 dot_S5000x512_S512x16_S5000x16_1_0_0_1_n_n 512 rfl rfl).symm k) = ix2 r k := funext fun a => Fin.ext (by
    match a with
    | ⟨0, _⟩ => exact lhsIdx_row _ _
    | ⟨1, _⟩ => exact (lhsIdx_contr _ _).trans hk)
  have er : dot_S5000x512_S512x16_S5000x16_1_0_0_1_n_n.rhsIdx (ix2 r q) ((ValueIdx.contrEquiv1 dot_S5000x512_S512x16_S5000x16_1_0_0_1_n_n 512 rfl rfl).symm k) = ix2 k q := funext fun a => Fin.ext (by
    match a with
    | ⟨0, _⟩ => exact (rhsIdx_contr _ _).trans hk
    | ⟨1, _⟩ => exact rhsIdx_col _ _)
  rw [ValueIdx.truncf_apply, ValueIdx.truncf_apply, el, er]

variable (V : (c : Dev nD) → (b : Ref sig .tc) → Buf (Elt Ideal) ((c : Thread nD τ).loc b))

/-- The body loads and stores its whole staging buffers: every rectangle sits at the zero offsets. -/
theorem zeroOffsets : (![0, 0] : Fin 2 → Nat) = fun _ => 0 := funext fun a => by fin_cases a <;> rfl

/-- THE MATRIX PRODUCT of a 100000×512 array and a 512×16 array, entry by entry: row times column, summed over
    the 512 contracted positions. -/
abbrev product (X : S100000x512.Idx → EReal) (W : S512x16.Idx → EReal) : S100000x16.Idx → EReal :=
  fun i => ∑ k : Fin 512, X (ix2 (⟨(i 0).val, (i 0).isLt⟩ : Fin 100000) k) * W (ix2 k (⟨(i 1).val, (i 1).isLt⟩ : Fin 16))

/-- The three index maps, decided over the 20 points: the left operand's block row is the output's, its block
    column zero; the right operand is one block; the output's block row is at most 19, its block column zero. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every one of the 20 row blocks of the output is some point's. -/
theorem everyRowBlock : ∀ b : Fin 20, ∃ t : Fin cfg0.N, win0_2.index t = ![b.val, 0] :=
  (by decide +kernel : ∀ b : Fin 20, ∃ t : Fin grid0.N, win0_2.index t = ![b.val, 0])

/-- Point `t`'s block of the left operand is the array's rows from 5000 times the output's block row on. -/
theorem leftBlock_apply (c : Dev nD) (t : Fin cfg0.N) (r : Fin 5000) (k : Fin 512) (p : Fin 100000)
    (hp : p.val = win0_2.index t (0 : Fin 2) * 5000 + r.val) :
    (iblk0 V c 0 t : Vec Ideal S5000x512 .f32) (ix2 r k) = (V c main_arg0 : S100000x512.Idx → EReal) (ix2 p k) := by
  obtain ⟨e0, e1, -⟩ := blockIndices t
  unfold iblk0
  rw [View.read_apply]
  show V c main_arg0 _ = V c main_arg0 _
  congr 1
  funext a; apply Fin.ext
  match a with
  | ⟨0, _⟩ => show win0_0.index t (0 : Fin 2) * 5000 + 1 * r.val = p.val; rw [e0, hp]; omega
  | ⟨1, _⟩ => show win0_0.index t (1 : Fin 2) * 512 + 1 * k.val = k.val; rw [e1]; omega

/-- Point `t`'s block of the right operand is the whole array. -/
theorem rightBlock_apply (c : Dev nD) (t : Fin cfg0.N) (k : Fin 512) (q : Fin 16) :
    (iblk0 V c 1 t : Vec Ideal S512x16 .f32) (ix2 k q) = (V c main_arg2 : S512x16.Idx → EReal) (ix2 k q) := by
  obtain ⟨-, -, e2, e3, -⟩ := blockIndices t
  unfold iblk0
  rw [View.read_apply]
  show V c main_arg2 _ = V c main_arg2 _
  congr 1
  funext a; apply Fin.ext
  match a with
  | ⟨0, _⟩ => show win0_1.index t (0 : Fin 2) * 512 + 1 * k.val = k.val; rw [e2]; omega
  | ⟨1, _⟩ => show win0_1.index t (1 : Fin 2) * 16 + 1 * q.val = q.val; rw [e3]; omega

/-- WHAT POINT `t` WRITES BACK is block `t` of the product of the two argument arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x512) zeroOffsets, View.ld_unit_zero (S := S512x16) zeroOffsets]
  funext j
  have hr : (j 0).val < 5000 := (j 0).isLt
  have hq : (j 1).val < 16 := (j 1).isLt
  have hx : (cfg0.win 2).xinj (grid0.coords t) j = ix2 (⟨(j 0).val, hr⟩ : Fin 5000) (⟨(j 1).val, hq⟩ : Fin 16) :=
    funext fun a => by match a with | ⟨0, _⟩ => rfl | ⟨1, _⟩ => rfl
  show k0_pay1 (iblk0 V c 0 t) (iblk0 V c 1 t) ((cfg0.win 2).xinj (grid0.coords t) j) = _
  rw [hx, payload_apply, View.read_apply]
  refine Finset.sum_congr rfl fun k _ => ?_
  rw [rightBlock_apply V c t k ⟨(j 1).val, hq⟩]
  obtain ⟨-, -, -, -, -, e5⟩ := blockIndices t
  have hi0 : ((((cfg0.win 2).blk t).view.emb j) 0).val = win0_2.index t (0 : Fin 2) * 5000 + (j 0).val := by
    show win0_2.index t (0 : Fin 2) * 5000 + 1 * (j 0).val = _; omega
  have hi1 : ((((cfg0.win 2).blk t).view.emb j) 1).val = (j 1).val := by
    show win0_2.index t (1 : Fin 2) * 16 + 1 * (j 1).val = _; rw [e5]; omega
  have hcol : (⟨(j 1).val, hq⟩ : Fin 16) = ⟨((((cfg0.win 2).blk t).view.emb j) 1).val, ((((cfg0.win 2).blk t).view.emb j) 1).isLt⟩ :=
    Fin.ext hi1.symm
  rw [hcol, leftBlock_apply V c t ⟨(j 0).val, hr⟩ k ⟨((((cfg0.win 2).blk t).view.emb j) 0).val, ((((cfg0.win 2).blk t).view.emb j) 0).isLt⟩ hi0]

/-- An index of the array is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v35).slice (win0_2.rect t)).set ↔ _
  rw [View.set_slice_whole, Rect.mem_set_unit]
  exact Iff.rfl

/-- EVERY ENTRY IS WRITTEN: row `r` lies in the block of the point whose block row is `r / 5000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := everyRowBlock ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE OUTPUT ARRAY after the region's write-backs is the product of the two argument arrays. -/
theorem arr_eq (c : Dev nD) :
    (dat0 V c).arrAt 2 cfg0.N = product (V c main_arg0) (V c main_arg2) :=
  (dat0 V c).arrAt_eq_of_cover 2 (product (V c main_arg0) (V c main_arg2)) (fun t _ => flushed_eq V c t) covered

/-- The product at row `p`, column `q`. -/
theorem product_apply (X : S100000x512.Idx → EReal) (W : S512x16.Idx → EReal) (p : Fin 100000) (q : Fin 16) :
    product X W (ix2 p q) = ∑ k : Fin 512, X (ix2 p k) * W (ix2 k q) := rfl

/-- … read at row `p`, column `q`, the two argument arrays named `X` and `W` as functions of their indices. -/
theorem arr_out (c : Dev nD) (p : Fin 100000) (q : Fin 16) (X : S100000x512.Idx → EReal) (W : S512x16.Idx → EReal)
    (hX : V c main_arg0 = X) (hW : V c main_arg2 = W) :
    ((Gen.dat0 (F := Ideal) V c).arrAt 2 cfg0.N : S100000x16.Idx → EReal) (ValueIdx.ix2 p q)
      = ∑ k : Fin 512, X (ValueIdx.ix2 p k) * W (ValueIdx.ix2 k q) := by
  subst hX hW
  rw [arr_eq]

end Cert.KernelIdeal.RegionOne

end
-- ==== Proof.RegionTwo.lean ====
/- The value of the second pipelined region's output array, index by index.
   The region computes, for every row p of the aggregated features A : [100000,16], the bias row b : [1,16] and the
   weight matrix W : [16,64], the row  max (A p + b) 0 · W  of the output [100000,64]: a rectified affine map followed
   by a product with W. The grid has ten points; point t reads rows 10000 t … 10000 t + 9999 of A, the whole of b and W,
   and writes the same rows of the output. Here: the body's stored block at one element as a sum over the sixteen
   contracted coordinates; the index maps' relations over the grid; what a point writes back as the restriction of one
   whole-array function to its block; the blocks cover the output; so the output array is that function. -/
import proofs.«160368_j5574867550498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionTwo

open Cert.KernelIdeal Cert.KernelIdeal.Gen Idealize.ShloMosaic Idealize.ShloMosaic.TcCoe Idealize.SL.Sem
open Idealize.ShloMosaic.Pipeline (Dat)
open Idealize.ShloMosaic.ValueIdx

/-! ## The stored block at one element -/

/-- On the left operand's row axis the product's operand index is the output's row. -/
theorem lhs_row (i : S10000x64.Idx) (z : dot_S10000x16_S16x64_S10000x64_1_0_0_1_n_n.contr.Idx) :
    (dot_S10000x16_S16x64_S10000x64_1_0_0_1_n_n.lhsIdx i z 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
/-- On its contracted axis it is the contraction coordinate. -/
theorem lhs_contr (i : S10000x64.Idx) (z : dot_S10000x16_S16x64_S10000x64_1_0_0_1_n_n.contr.Idx) :
    (dot_S10000x16_S16x64_S10000x64_1_0_0_1_n_n.lhsIdx i z 1).val = (z ⟨0, by decide⟩).val :=
  dot_S10000x16_S16x64_S10000x64_1_0_0_1_n_n.lhsIdx_val_of_single rfl i z
/-- The right operand's contracted axis carries the contraction coordinate, -/
theorem rhs_contr (i : S10000x64.Idx) (z : dot_S10000x16_S16x64_S10000x64_1_0_0_1_n_n.contr.Idx) :
    (dot_S10000x16_S16x64_S10000x64_1_0_0_1_n_n.rhsIdx i z 0).val = (z ⟨0, by decide⟩).val :=
  dot_S10000x16_S16x64_S10000x64_1_0_0_1_n_n.rhsIdx_val_of_single rfl i z
/-- and its column axis the output's column. -/
theorem rhs_col (i : S10000x64.Idx) (z : dot_S10000x16_S16x64_S10000x64_1_0_0_1_n_n.contr.Idx) :
    (dot_S10000x16_S16x64_S10000x64_1_0_0_1_n_n.rhsIdx i z 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- THE STORED BLOCK AT (r, q): the sum over the sixteen hidden coordinates k of the rectified hidden value
    max (x0 (r, k) + x1 (0, k)) 0 times the weight x2 (k, q). The format changes are the identity at the ideal values, the
    shape casts are to the same shapes, the bias row is read at every row, and the product into the zero accumulator is the
    plain sum over the contracted axis. -/
theorem stored_apply (x0 : Vec Ideal S10000x16 .f32) (x1 : Vec Ideal S1x16 .f32) (x2 : Vec Ideal S16x64 .f32)
    (r : Fin 10000) (q : Fin 64) :
    k1_pay1 x0 x1 x2 (ix2 r q)
      = ∑ k : Fin 16, max (x0 (ix2 r k) + x1 (ix2 (0 : Fin 1) k)) (Ideal.ofBits .f32 0x00000000#32) * x2 (ix2 k q) := by
  unfold k1_pay1
  simp only [matmul]
  rw [Ideal.matmul_constant_zero_apply, ← Equiv.sum_comp (contrEquiv1 dot_S10000x16_S16x64_S10000x64_1_0_0_1_n_n 16 rfl rfl).symm]
  refine Finset.sum_congr rfl fun k _ => ?_
  have hk := contrEquiv1_symm_val dot_S10000x16_S16x64_S10000x64_1_0_0_1_n_n 16 rfl rfl k
  have el : dot_S10000x16_S16x64_S10000x64_1_0_0_1_n_n.lhsIdx (ix2 r q) ((contrEquiv1 dot_S10000x16_S16x64_S10000x64_1_0_0_1_n_n 16 rfl rfl).symm k) = ix2 r k := funext fun a => Fin.ext (by
    match a with
    | ⟨0, _⟩ => exact lhs_row _ _
    | ⟨1, _⟩ => exact (lhs_contr _ _).trans hk)
  have er : dot_S10000x16_S16x64_S10000x64_1_0_0_1_n_n.rhsIdx (ix2 r q) ((contrEquiv1 dot_S10000x16_S16x64_S10000x64_1_0_0_1_n_n 16 rfl rfl).symm k) = ix2 k q := funext fun a => Fin.ext (by
    match a with
    | ⟨0, _⟩ => exact (rhs_contr _ _).trans hk
    | ⟨1, _⟩ => exact rhs_col _ _)
  rw [el, er]
  rw [truncf_apply, truncf_apply, maximumf_apply, addf_apply, broadcast_apply, shapeCast_self, shapeCast_self,
    broadcastTo_1b_ab_apply]
  rfl

/-! ## From the blocks to the array -/

variable (V : (c : Dev nD) → (b : Ref sig .tc) → Buf (Elt Ideal) ((c : Thread nD τ).loc b))

theorem zeros : (![0, 0] : Fin 2 → Nat) = fun _ => 0 := funext fun a => by fin_cases a <;> rfl

/-- THE WHOLE-ARRAY FUNCTION: row p, column q of the output is the sum over the sixteen hidden coordinates k of
    max (a (p, k) + b (0, k)) 0 times w (k, q). -/
def rectifiedRowsTimes (a : S100000x16.Idx → EReal) (b : S1x16.Idx → EReal) (w : S16x64.Idx → EReal) : S100000x64.Idx → EReal :=
  fun i => ∑ k : Fin 16, max (a (ix2 (⟨(i 0).val, idx2_lt0 i⟩ : Fin 100000) k) + b (ix2 (0 : Fin 1) k)) (Ideal.ofBits .f32 0x00000000#32)
    * w (ix2 k (⟨(i 1).val, idx2_lt1 i⟩ : Fin 64))

theorem rectifiedRowsTimes_apply (a : S100000x16.Idx → EReal) (b : S1x16.Idx → EReal) (w : S16x64.Idx → EReal) (i : S100000x64.Idx) :
    rectifiedRowsTimes a b w i = ∑ k : Fin 16, max (a (ix2 (⟨(i 0).val, idx2_lt0 i⟩ : Fin 100000) k) + b (ix2 (0 : Fin 1) k)) (Ideal.ofBits .f32 0x00000000#32)
      * w (ix2 k (⟨(i 1).val, idx2_lt1 i⟩ : Fin 64)) := rfl

/-- The index maps over the ten grid points, decided: the feature window moves with the output window along the
    rows and stays at column block 0; the bias and weight windows stay at block (0, 0); the output's row block index is at
    most 9 and its column block index 0. -/
theorem index_facts : ∀ t : Fin cfg1.N, win1_0.index t (0 : Fin 2) = win1_3.index t (0 : Fin 2) + 0
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every row block of the output is some point's. -/
theorem index_onto : ∀ q0 : Fin 10, ∃ t : Fin cfg1.N, win1_3.index t = ![q0.val + 0, 0] :=
  (by decide +kernel : ∀ q0 : Fin 10, ∃ t : Fin grid1.N, win1_3.index t = ![q0.val + 0, 0])

/-- WHAT POINT t WRITES BACK is block t of the whole-array function of the three input arrays as the region finds them. -/
theorem flushed_eq (c : Dev nD) (t : Fin cfg1.N) :
    (dat1 (F := Ideal) V c).flushed 3 t
      = ((cfg1.win 3).blk t).view.read (Elt Ideal) (rectifiedRowsTimes (V c main_v53) (V c main_v54) (V c main_arg4)) := by
  show (cfg1.win 3).cut (grid1.coords t) ((dat1 V c).after 3 t) = _
  rw [after1_3]
  unfold out1_3
  rw [View.canon_unit_zero zeros]
  simp only [View.ld_unit_zero (S := S10000x16) zeros, View.ld_unit_zero (S := S1x16) zeros, View.ld_unit_zero (S := S16x64) zeros]
  obtain ⟨e00, e01, e10, e11, e20, e21, e30, e31⟩ := index_facts t
  funext j
  obtain ⟨r, q, rfl⟩ : ∃ (r : Fin 10000) (q : Fin 64), j = ix2 r q := ⟨j 0, j 1, eq_ix2 j⟩
  show k1_pay1 (iblk1 V c 0 t) (iblk1 V c 1 t) (iblk1 V c 2 t) (ix2 r q)
    = rectifiedRowsTimes (V c main_v53) (V c main_v54) (V c main_arg4) (((cfg1.win 3).blk t).view.emb (ix2 r q))
  refine (stored_apply _ _ _ r q).trans ?_
  rw [rectifiedRowsTimes_apply]
  refine Finset.sum_congr rfl fun k _ => ?_
  have h0 : iblk1 V c 0 t (ix2 r k)
      = V c main_v53 (ix2 (⟨((((cfg1.win 3).blk t).view.emb (ix2 r q)) 0).val, idx2_lt0 _⟩ : Fin 100000) k) := by
    show V c main_v53 (((cfg1.win 0).blk t).view.emb (ix2 r k)) = _
    refine congrArg (V c main_v53) (funext fun a => Fin.ext ?_)
    match a with
    | ⟨0, _⟩ => show win1_0.index t (0 : Fin 2) * 10000 + 1 * r.val = win1_3.index t (0 : Fin 2) * 10000 + 1 * r.val; omega
    | ⟨1, _⟩ => show win1_0.index t (1 : Fin 2) * 16 + 1 * k.val = k.val; omega
  have h1 : iblk1 V c 1 t (ix2 (0 : Fin 1) k) = V c main_v54 (ix2 (0 : Fin 1) k) := by
    show V c main_v54 (((cfg1.win 1).blk t).view.emb (ix2 (0 : Fin 1) k)) = _
    refine congrArg (V c main_v54) (funext fun a => Fin.ext ?_)
    match a with
    | ⟨0, _⟩ => show win1_1.index t (0 : Fin 2) * 1 + 1 * 0 = 0; omega
    | ⟨1, _⟩ => show win1_1.index t (1 : Fin 2) * 16 + 1 * k.val = k.val; omega
  have h2 : iblk1 V c 2 t (ix2 k q)
      = V c main_arg4 (ix2 k (⟨((((cfg1.win 3).blk t).view.emb (ix2 r q)) 1).val, idx2_lt1 _⟩ : Fin 64)) := by
    show V c main_arg4 (((cfg1.win 2).blk t).view.emb (ix2 k q)) = _
    refine congrArg (V c main_arg4) (funext fun a => Fin.ext ?_)
    match a with
    | ⟨0, _⟩ => show win1_2.index t (0 : Fin 2) * 16 + 1 * k.val = k.val; omega
    | ⟨1, _⟩ => show win1_2.index t (1 : Fin 2) * 64 + 1 * q.val = win1_3.index t (1 : Fin 2) * 64 + 1 * q.val; omega
  rw [h0, h1, h2]

/-- An index of the output array is in point t's block iff each coordinate is in the block's range on its axis. -/
theorem mem_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v55).slice (win1_3.rect t)).set ↔ _
  rw [View.set_slice_whole, Rect.mem_set_unit]
  exact Iff.rfl

/-- THE BLOCKS COVER THE OUTPUT: row r is in the block of the point whose row block index is r / 10000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := index_onto ⟨(i 0).val / 10000, by omega⟩
  have q0 : win1_3.index t (0 : Fin 2) = (i 0).val / 10000 + 0 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE OUTPUT ARRAY after the region is the whole-array function of the three input arrays. -/
theorem arr_eq (c : Dev nD) :
    (dat1 (F := Ideal) V c).arrAt 3 cfg1.N = rectifiedRowsTimes (V c main_v53) (V c main_v54) (V c main_arg4) :=
  (dat1 (F := Ideal) V c).arrAt_eq_of_cover 3 (rectifiedRowsTimes (V c main_v53) (V c main_v54) (V c main_arg4))
    (fun t _ => flushed_eq V c t) covered

/-- The three input arrays as the region finds them, as functions into the extended reals: the aggregated features,
    the bias row and the weight matrix. -/
abbrev feat (c : Dev nD) : S100000x16.Idx → EReal := V c main_v53
abbrev bias (c : Dev nD) : S1x16.Idx → EReal := V c main_v54
abbrev weight (c : Dev nD) : S16x64.Idx → EReal := V c main_arg4

/-- … read at row p, column q. -/
theorem arr_out (c : Dev nD) (p : Fin 100000) (q : Fin 64) :
    ((dat1 (F := Ideal) V c).arrAt 3 cfg1.N : S100000x64.Idx → EReal) (ix2 p q)
      = ∑ k : Fin 16, max (feat V c (ix2 p k) + bias V c (ix2 (0 : Fin 1) k)) (Ideal.ofBits .f32 0x00000000#32)
          * weight V c (ix2 k q) :=
  (congrFun (arr_eq V c) (ix2 p q)).trans rfl

/-- The same with the hidden value spelt by the pointwise vector operations read at (p, k): the maximum of the
    features plus the bias row (read at every row) and the zero splat. -/
theorem arr_out_pointwise (c : Dev nD) (p : Fin 100000) (q : Fin 64) :
    ((dat1 (F := Ideal) V c).arrAt 3 cfg1.N : S100000x64.Idx → EReal) (ix2 p q)
      = ∑ k : Fin 16, (maximumf (F := Ideal) (φ := .f32) (s := S100000x16)
            (addf (F := Ideal) (φ := .f32) (s := S100000x16) (feat V c)
              (fun i => bias V c (ix2 (0 : Fin 1) (⟨(i 1).val, idx2_lt1 i⟩ : Fin 16))))
            (fun _ => Ideal.ofBits .f32 0x00000000#32)) (ix2 p k)
          * weight V c (ix2 k q) :=
  arr_out V c p q

end Cert.KernelIdeal.RegionTwo

end
-- ==== Proof.RefDots.lean ====
/-
  The reference's two matrix products read at an index, over the extended reals.

  The reference multiplies a `[100000, 512]` matrix by a `[512, 16]` one and, later, a `[100000, 16]` matrix by a
  `[16, 64]` one. At the exact (extended-real) float instance such a product's entry is the plain sum of products
  over the contracted axis; here that sum is stated with every index given by its two coordinates:
  entry `(p, q)` is `∑ k, l (p, k) * r (k, q)`.
-/
import proofs.«160368_j5574867550498_1_alg».proof.ReferenceIdeal
import Idealize.ShloMosaic.Lib.ValueIdx
import Idealize.ShloMosaic.PureOps.Ideal.Laws

noncomputable section

namespace Cert.ReferenceIdeal.Dots

open Cert.ReferenceIdeal Idealize.ShloMosaic

variable [Facts₀]

/-! ### The dot1 product: `[100000, 512] × [512, 16] → [100000, 16]`, contracting the left operand's axis 1 with the right operand's axis 0 -/

/-- The left operand's row coordinate is the output's row coordinate, whatever the contraction position. -/
theorem dot1_lhs_row (i : S100000x16.Idx) (κ : dot_S100000x512_S512x16_S100000x16_1_0_0_1_n_n.contr.Idx) :
    (dot_S100000x512_S512x16_S100000x16_1_0_0_1_n_n.lhsIdx i κ 0).val = (i 0).val := by
  unfold DotDims.lhsIdx
  rw [dif_neg (show ¬(0 : Fin S100000x512.rank) ∈ dot_S100000x512_S512x16_S100000x16_1_0_0_1_n_n.lhsBatch from List.not_mem_nil),
    dif_pos (show (0 : Fin S100000x512.rank) ∈ dot_S100000x512_S512x16_S100000x16_1_0_0_1_n_n.lhsNonContracting from List.mem_singleton.mpr rfl)]
  rfl

/-- The left operand's column coordinate is the contraction position's one coordinate. -/
theorem dot1_lhs_col (i : S100000x16.Idx) (κ : dot_S100000x512_S512x16_S100000x16_1_0_0_1_n_n.contr.Idx) :
    (dot_S100000x512_S512x16_S100000x16_1_0_0_1_n_n.lhsIdx i κ 1).val = (κ ⟨0, by rw [DotDims.rank_contr]; exact Nat.one_pos⟩).val :=
  dot_S100000x512_S512x16_S100000x16_1_0_0_1_n_n.lhsIdx_val_of_single rfl i κ

/-- The right operand's row coordinate is the contraction position's one coordinate. -/
theorem dot1_rhs_row (i : S100000x16.Idx) (κ : dot_S100000x512_S512x16_S100000x16_1_0_0_1_n_n.contr.Idx) :
    (dot_S100000x512_S512x16_S100000x16_1_0_0_1_n_n.rhsIdx i κ 0).val = (κ ⟨0, by rw [DotDims.rank_contr]; exact Nat.one_pos⟩).val :=
  dot_S100000x512_S512x16_S100000x16_1_0_0_1_n_n.rhsIdx_val_of_single rfl i κ

/-- The right operand's column coordinate is the output's column coordinate, whatever the contraction position. -/
theorem dot1_rhs_col (i : S100000x16.Idx) (κ : dot_S100000x512_S512x16_S100000x16_1_0_0_1_n_n.contr.Idx) :
    (dot_S100000x512_S512x16_S100000x16_1_0_0_1_n_n.rhsIdx i κ 1).val = (i 1).val := by
  unfold DotDims.rhsIdx
  rw [dif_neg (show ¬(1 : Fin S512x16.rank) ∈ dot_S100000x512_S512x16_S100000x16_1_0_0_1_n_n.rhsBatch from List.not_mem_nil),
    dif_pos (show (1 : Fin S512x16.rank) ∈ dot_S100000x512_S512x16_S100000x16_1_0_0_1_n_n.rhsNonContracting from List.mem_singleton.mpr rfl)]
  rfl

/-- Over the extended reals the product's entry at row `p`, column `q` is `∑ k < 512, l[p, k] * r[k, q]`:
    the sum over the one-axis contraction index is re-indexed through its bijection with `Fin 512`, and the two
    operand indices at contraction position `k` are `(p, k)` and `(k, q)`, coordinate by coordinate. -/
theorem dot1_apply (l : FVec Ideal S100000x512 .f32) (r : FVec Ideal S512x16 .f32) (p : Fin 100000) (q : Fin 16) :
    Host.dotGeneral (F := Ideal) dot_S100000x512_S512x16_S100000x16_1_0_0_1_n_n none l r (ValueIdx.ix2 p q)
      = ∑ k : Fin 512, l (ValueIdx.ix2 p k) * r (ValueIdx.ix2 k q) := by
  simp only [Host.dotGeneral]
  rw [Ideal.dotGeneral_apply, ← Equiv.sum_comp (ValueIdx.contrEquiv1 dot_S100000x512_S512x16_S100000x16_1_0_0_1_n_n 512 rfl rfl).symm]
  refine Finset.sum_congr rfl fun k _ => ?_
  have hk := ValueIdx.contrEquiv1_symm_val dot_S100000x512_S512x16_S100000x16_1_0_0_1_n_n 512 rfl rfl k
  have el : dot_S100000x512_S512x16_S100000x16_1_0_0_1_n_n.lhsIdx (ValueIdx.ix2 p q)
      ((ValueIdx.contrEquiv1 dot_S100000x512_S512x16_S100000x16_1_0_0_1_n_n 512 rfl rfl).symm k) = ValueIdx.ix2 p k :=
    funext fun a => Fin.ext (by
      match a with
      | ⟨0, _⟩ => exact dot1_lhs_row _ _
      | ⟨1, _⟩ => exact (dot1_lhs_col _ _).trans hk)
  have er : dot_S100000x512_S512x16_S100000x16_1_0_0_1_n_n.rhsIdx (ValueIdx.ix2 p q)
      ((ValueIdx.contrEquiv1 dot_S100000x512_S512x16_S100000x16_1_0_0_1_n_n 512 rfl rfl).symm k) = ValueIdx.ix2 k q :=
    funext fun a => Fin.ext (by
      match a with
      | ⟨0, _⟩ => exact (dot1_rhs_row _ _).trans hk
      | ⟨1, _⟩ => exact dot1_rhs_col _ _)
  rw [el, er]

/-! ### The dot2 product: `[100000, 16] × [16, 64] → [100000, 64]`, contracting the left operand's axis 1 with the right operand's axis 0 -/

/-- The left operand's row coordinate is the output's row coordinate, whatever the contraction position. -/
theorem dot2_lhs_row (i : S100000x64.Idx) (κ : dot_S100000x16_S16x64_S100000x64_1_0_0_1_n_n.contr.Idx) :
    (dot_S100000x16_S16x64_S100000x64_1_0_0_1_n_n.lhsIdx i κ 0).val = (i 0).val := by
  unfold DotDims.lhsIdx
  rw [dif_neg (show ¬(0 : Fin S100000x16.rank) ∈ dot_S100000x16_S16x64_S100000x64_1_0_0_1_n_n.lhsBatch from List.not_mem_nil),
    dif_pos (show (0 : Fin S100000x16.rank) ∈ dot_S100000x16_S16x64_S100000x64_1_0_0_1_n_n.lhsNonContracting from List.mem_singleton.mpr rfl)]
  rfl

/-- The left operand's column coordinate is the contraction position's one coordinate. -/
theorem dot2_lhs_col (i : S100000x64.Idx) (κ : dot_S100000x16_S16x64_S100000x64_1_0_0_1_n_n.contr.Idx) :
    (dot_S100000x16_S16x64_S100000x64_1_0_0_1_n_n.lhsIdx i κ 1).val = (κ ⟨0, by rw [DotDims.rank_contr]; exact Nat.one_pos⟩).val :=
  dot_S100000x16_S16x64_S100000x64_1_0_0_1_n_n.lhsIdx_val_of_single rfl i κ

/-- The right operand's row coordinate is the contraction position's one coordinate. -/
theorem dot2_rhs_row (i : S100000x64.Idx) (κ : dot_S100000x16_S16x64_S100000x64_1_0_0_1_n_n.contr.Idx) :
    (dot_S100000x16_S16x64_S100000x64_1_0_0_1_n_n.rhsIdx i κ 0).val = (κ ⟨0, by rw [DotDims.rank_contr]; exact Nat.one_pos⟩).val :=
  dot_S100000x16_S16x64_S100000x64_1_0_0_1_n_n.rhsIdx_val_of_single rfl i κ

/-- The right operand's column coordinate is the output's column coordinate, whatever the contraction position. -/
theorem dot2_rhs_col (i : S100000x64.Idx) (κ : dot_S100000x16_S16x64_S100000x64_1_0_0_1_n_n.contr.Idx) :
    (dot_S100000x16_S16x64_S100000x64_1_0_0_1_n_n.rhsIdx i κ 1).val = (i 1).val := by
  unfold DotDims.rhsIdx
  rw [dif_neg (show ¬(1 : Fin S16x64.rank) ∈ dot_S100000x16_S16x64_S100000x64_1_0_0_1_n_n.rhsBatch from List.not_mem_nil),
    dif_pos (show (1 : Fin S16x64.rank) ∈ dot_S100000x16_S16x64_S100000x64_1_0_0_1_n_n.rhsNonContracting from List.mem_singleton.mpr rfl)]
  rfl

/-- Over the extended reals the product's entry at row `p`, column `q` is `∑ k < 16, l[p, k] * r[k, q]`:
    the sum over the one-axis contraction index is re-indexed through its bijection with `Fin 16`, and the two
    operand indices at contraction position `k` are `(p, k)` and `(k, q)`, coordinate by coordinate. -/
theorem dot2_apply (l : FVec Ideal S100000x16 .f32) (r : FVec Ideal S16x64 .f32) (p : Fin 100000) (q : Fin 64) :
    Host.dotGeneral (F := Ideal) dot_S100000x16_S16x64_S100000x64_1_0_0_1_n_n none l r (ValueIdx.ix2 p q)
      = ∑ k : Fin 16, l (ValueIdx.ix2 p k) * r (ValueIdx.ix2 k q) := by
  simp only [Host.dotGeneral]
  rw [Ideal.dotGeneral_apply, ← Equiv.sum_comp (ValueIdx.contrEquiv1 dot_S100000x16_S16x64_S100000x64_1_0_0_1_n_n 16 rfl rfl).symm]
  refine Finset.sum_congr rfl fun k _ => ?_
  have hk := ValueIdx.contrEquiv1_symm_val dot_S100000x16_S16x64_S100000x64_1_0_0_1_n_n 16 rfl rfl k
  have el : dot_S100000x16_S16x64_S100000x64_1_0_0_1_n_n.lhsIdx (ValueIdx.ix2 p q)
      ((ValueIdx.contrEquiv1 dot_S100000x16_S16x64_S100000x64_1_0_0_1_n_n 16 rfl rfl).symm k) = ValueIdx.ix2 p k :=
    funext fun a => Fin.ext (by
      match a with
      | ⟨0, _⟩ => exact dot2_lhs_row _ _
      | ⟨1, _⟩ => exact (dot2_lhs_col _ _).trans hk)
  have er : dot_S100000x16_S16x64_S100000x64_1_0_0_1_n_n.rhsIdx (ValueIdx.ix2 p q)
      ((ValueIdx.contrEquiv1 dot_S100000x16_S16x64_S100000x64_1_0_0_1_n_n 16 rfl rfl).symm k) = ValueIdx.ix2 k q :=
    funext fun a => Fin.ext (by
      match a with
      | ⟨0, _⟩ => exact (dot2_rhs_row _ _).trans hk
      | ⟨1, _⟩ => exact dot2_rhs_col _ _)
  rw [el, er]

end Cert.ReferenceIdeal.Dots

end
-- ==== Proof.KernelValue.lean ====
/-
  The value of the idealized kernel program: its result buffer as ONE function of the argument arrays.

  The last boundary's contents are read back stage by stage. After the second region the result is the propagation
  of that region's output plus the output bias; the region's output is the matrix product `relu (agg + b1) · W2` of
  what the middle stretch left, `agg` being the propagation of the first region's output `x · W1`; the endpoint
  lists and the edge weights come from the first stretches and are carried unchanged through everything after.
  Each region's output array is the host's matrix product of the region's input arrays: index by index both are
  the sum over the contracted axis of the products.
-/
import proofs.«160368_j5574867550498_1_alg».proof.Proof.Gen.KernelIdeal.Frame
import proofs.«160368_j5574867550498_1_alg».proof.Proof.KernelStages
import proofs.«160368_j5574867550498_1_alg».proof.Proof.Gcn
import proofs.«160368_j5574867550498_1_alg».proof.Proof.RegionOne
import proofs.«160368_j5574867550498_1_alg».proof.Proof.RegionTwo
import proofs.«160368_j5574867550498_1_alg».proof.Proof.RefDots
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## What reaches the first region -/

theorem in0_x : V3 m ρ c main_arg0 = m ((c : Thread nD τ).loc main_arg0) := Stages.first_keeps_x (W0 m ρ c)
theorem in0_w : V3 m ρ c main_arg2 = m ((c : Thread nD τ).loc main_arg2) := Stages.first_keeps_w1 (W0 m ρ c)

/-- The edge weights, the sources and the targets at the first region's entry. -/
theorem norm3 : W3 m ρ c (Proc.devRef .tc main_v34)
    = Cert.Gcn.norm (F := Ideal) (Cert.Gcn.srcOf (F := Ideal) (m ((c : Thread nD τ).loc main_arg1))) (Cert.Gcn.dstOf (F := Ideal) (m ((c : Thread nD τ).loc main_arg1))) :=
  Stages.first_norm (W0 m ρ c)
theorem src3 : W3 m ρ c (Proc.devRef .tc main_v3) = Cert.Gcn.srcOf (F := Ideal) (m ((c : Thread nD τ).loc main_arg1)) :=
  Stages.first_src (W0 m ρ c)
theorem dst3 : W3 m ρ c (Proc.devRef .tc main_v6) = Cert.Gcn.dstOf (F := Ideal) (m ((c : Thread nD τ).loc main_arg1)) :=
  Stages.first_dst (W0 m ρ c)

/-! ## Through the first region: it writes only its output array -/

theorem norm4 : W4 m ρ c (Proc.devRef .tc main_v34) = W3 m ρ c (Proc.devRef .tc main_v34) := W4_of_ne m ρ c main_v34 (by decide)
theorem src4 : W4 m ρ c (Proc.devRef .tc main_v3) = W3 m ρ c (Proc.devRef .tc main_v3) := W4_of_ne m ρ c main_v3 (by decide)
theorem dst4 : W4 m ρ c (Proc.devRef .tc main_v6) = W3 m ρ c (Proc.devRef .tc main_v6) := W4_of_ne m ρ c main_v6 (by decide)
theorem b14 : W4 m ρ c (Proc.devRef .tc main_arg3) = m ((c : Thread nD τ).loc main_arg3) :=
  (W4_of_ne m ρ c main_arg3 (by decide)).trans (Stages.first_keeps_b1 (W0 m ρ c))
theorem w24 : W4 m ρ c (Proc.devRef .tc main_arg4) = m ((c : Thread nD τ).loc main_arg4) :=
  (W4_of_ne m ρ c main_arg4 (by decide)).trans (Stages.first_keeps_w2 (W0 m ρ c))
theorem b24 : W4 m ρ c (Proc.devRef .tc main_arg5) = m ((c : Thread nD τ).loc main_arg5) :=
  (W4_of_ne m ρ c main_arg5 (by decide)).trans (Stages.first_keeps_b2 (W0 m ρ c))
theorem out4 : W4 m ρ c (Proc.devRef .tc main_v35) = (dat0 (V3 m ρ) c).arrAt 2 cfg0.N := W4_arr m ρ c 2

/-! ## The middle stretch -/

theorem norm5 : W5 m ρ c (Proc.devRef .tc main_v34) = W4 m ρ c (Proc.devRef .tc main_v34) := Stages.second_keeps_norm (W4 m ρ c)
theorem src5 : W5 m ρ c (Proc.devRef .tc main_v3) = W4 m ρ c (Proc.devRef .tc main_v3) := Stages.second_keeps_src (W4 m ρ c)
theorem dst5 : W5 m ρ c (Proc.devRef .tc main_v6) = W4 m ρ c (Proc.devRef .tc main_v6) := Stages.second_keeps_dst (W4 m ρ c)
theorem b25 : W5 m ρ c (Proc.devRef .tc main_arg5) = W4 m ρ c (Proc.devRef .tc main_arg5) := Stages.second_keeps_b2 (W4 m ρ c)
theorem w25 : W5 m ρ c (Proc.devRef .tc main_arg4) = W4 m ρ c (Proc.devRef .tc main_arg4) := Stages.second_keeps_w2 (W4 m ρ c)
theorem agg5 : W5 m ρ c (Proc.devRef .tc main_v53)
    = Cert.Gcn.prop16 (F := Ideal) (W4 m ρ c (Proc.devRef .tc main_v34)) (W4 m ρ c (Proc.devRef .tc main_v3)) (W4 m ρ c (Proc.devRef .tc main_v6)) (W4 m ρ c (Proc.devRef .tc main_v35)) :=
  Stages.second_agg (W4 m ρ c)
theorem bias5 : W5 m ρ c (Proc.devRef .tc main_v54) = shapeCast S1x16 (W4 m ρ c (Proc.devRef .tc main_arg3)) shapeCasts_S16_S1x16 :=
  Stages.second_bias (W4 m ρ c)

/-! ## Through the second region: it writes only its output array -/

theorem norm6 : W6 m ρ c (Proc.devRef .tc main_v34) = W5 m ρ c (Proc.devRef .tc main_v34) := W6_of_ne m ρ c main_v34 (by decide)
theorem src6 : W6 m ρ c (Proc.devRef .tc main_v3) = W5 m ρ c (Proc.devRef .tc main_v3) := W6_of_ne m ρ c main_v3 (by decide)
theorem dst6 : W6 m ρ c (Proc.devRef .tc main_v6) = W5 m ρ c (Proc.devRef .tc main_v6) := W6_of_ne m ρ c main_v6 (by decide)
theorem b26 : W6 m ρ c (Proc.devRef .tc main_arg5) = W5 m ρ c (Proc.devRef .tc main_arg5) := W6_of_ne m ρ c main_arg5 (by decide)
theorem out6 : W6 m ρ c (Proc.devRef .tc main_v55) = (dat1 (V5 m ρ) c).arrAt 3 cfg1.N := W6_arr m ρ c 3

/-! ## The whole program -/

/-- The result buffer, given that each region's output array is the host's matrix product of its input arrays. -/
theorem whole_of
    (h1 : (dat0 (F := Ideal) (V3 m ρ) c).arrAt 2 cfg0.N
      = Cert.Gcn.mm1 (F := Ideal) (m ((c : Thread nD τ).loc main_arg0)) (m ((c : Thread nD τ).loc main_arg2)))
    (h2 : (dat1 (F := Ideal) (V5 m ρ) c).arrAt 3 cfg1.N
      = Cert.Gcn.mm2 (F := Ideal) (Cert.Gcn.hidden (F := Ideal) (W5 m ρ c (Proc.devRef .tc main_v53)) (m ((c : Thread nD τ).loc main_arg3)))
          (m ((c : Thread nD τ).loc main_arg4))) :
    W7 m ρ c (Proc.devRef .tc main_v76)
      = Cert.Gcn.model (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (Stages.third_out (W6 m ρ c)).trans ?_
  rw [norm6, norm5, norm4, norm3, src6, src5, src4, src3, dst6, dst5, dst4, dst3, b26, b25, b24, out6, h2, agg5,
    norm4, norm3, src4, src3, dst4, dst3, out4, h1]
  rfl

/-! ## The regions' output arrays are the host's matrix products -/

/-- The hidden activation read at `(p, k)`: the bias row is the same whether the one-row matrix is made by a cast of
    the bias vector (the kernel program) or by repeating it along a new leading axis (the reference). -/
theorem hidden_apply (A : Cert.ReferenceIdeal.S100000x16.Idx → EReal) (b1 : Cert.ReferenceIdeal.S16.Idx → EReal) (p : Fin 100000) (k : Fin 16) :
    Cert.Gcn.hidden (F := Ideal) A b1 (ValueIdx.ix2 p k)
      = max (A (ValueIdx.ix2 p k) + shapeCast S1x16 b1 shapeCasts_S16_S1x16 (ValueIdx.ix2 (0 : Fin 1) k)) (Ideal.ofBits .f32 0x00000000#32) := by
  rw [ValueIdx.shapeCast_a_1a_apply]
  unfold Cert.Gcn.hidden
  have e1 : broadcastInDim Cert.ReferenceIdeal.S100000x16 ![0, 1] Cert.ReferenceIdeal.Gen.bcast_S1x16_S100000x16_0_1
      (broadcastInDim Cert.ReferenceIdeal.S1x16 ![1] Cert.ReferenceIdeal.Gen.bcast_S16_S1x16_1 b1) (ValueIdx.ix2 p k) = b1 (ValueIdx.ix1 k) := by
    rw [broadcastInDim_apply _ _ _ (ValueIdx.ix2 p k) (ValueIdx.ix2 (0 : Fin 1) k) (fun a => by
        match a with
        | ⟨0, _⟩ => rfl
        | ⟨1, _⟩ => rfl)]
    exact broadcastInDim_apply _ _ b1 (ValueIdx.ix2 (0 : Fin 1) k) (ValueIdx.ix1 k) (fun a => by
        match a with
        | ⟨0, _⟩ => rfl)
  show max (A (ValueIdx.ix2 p k) + _) _ = _
  rw [e1]
  rfl

/-- The second region's output array is the host's product `relu (agg + b1) · W2` of what the middle stretch left:
    at `(p, q)` both are the sum over the sixteen hidden features. -/
theorem region_two_apply (p : Fin 100000) (q : Fin 64) :
    @Eq EReal ((dat1 (F := Ideal) (V5 m ρ) c).arrAt 3 cfg1.N (ValueIdx.ix2 p q))
      (Cert.Gcn.mm2 (F := Ideal) (Cert.Gcn.hidden (F := Ideal) (W5 m ρ c (Proc.devRef .tc main_v53)) (m ((c : Thread nD τ).loc main_arg3)))
        (m ((c : Thread nD τ).loc main_arg4)) (ValueIdx.ix2 p q)) := by
  refine (RegionTwo.arr_out (V5 m ρ) c p q).trans (?_ : @Eq EReal _ _)
  unfold Cert.Gcn.mm2
  rw [Cert.ReferenceIdeal.Dots.dot2_apply]
  refine Finset.sum_congr rfl fun k _ => ?_
  rw [hidden_apply]
  have eb : RegionTwo.bias (V5 m ρ) c = shapeCast S1x16 (m ((c : Thread nD τ).loc main_arg3)) shapeCasts_S16_S1x16 :=
    (bias5 m ρ c).trans (congrArg (fun b => shapeCast S1x16 b shapeCasts_S16_S1x16) (b14 m ρ c))
  have ew : RegionTwo.weight (V5 m ρ) c = m ((c : Thread nD τ).loc main_arg4) := (w25 m ρ c).trans (w24 m ρ c)
  rw [eb, ew]

theorem region_two : (dat1 (F := Ideal) (V5 m ρ) c).arrAt 3 cfg1.N
    = Cert.Gcn.mm2 (F := Ideal) (Cert.Gcn.hidden (F := Ideal) (W5 m ρ c (Proc.devRef .tc main_v53)) (m ((c : Thread nD τ).loc main_arg3)))
        (m ((c : Thread nD τ).loc main_arg4)) := by
  show ((dat1 (F := Ideal) (V5 m ρ) c).arrAt 3 cfg1.N : S100000x64.Idx → EReal) = _
  refine funext fun j => ?_
  obtain ⟨p, q, rfl⟩ : ∃ (p : Fin 100000) (q : Fin 64), j = ValueIdx.ix2 p q := ⟨j 0, j 1, ValueIdx.eq_ix2 j⟩
  exact region_two_apply m ρ c p q

/-- The first region's output array is the host's product `x · W1` of the argument arrays: at `(p, q)` both are the
    sum over the 512 input features. -/
theorem region_one_apply (p : Fin 100000) (q : Fin 16) :
    @Eq EReal ((dat0 (F := Ideal) (V3 m ρ) c).arrAt 2 cfg0.N (ValueIdx.ix2 p q))
      (Cert.Gcn.mm1 (F := Ideal) (m ((c : Thread nD τ).loc main_arg0)) (m ((c : Thread nD τ).loc main_arg2)) (ValueIdx.ix2 p q)) := by
  refine (RegionOne.arr_out (V3 m ρ) c p q (m ((c : Thread nD τ).loc main_arg0)) (m ((c : Thread nD τ).loc main_arg2)) (in0_x m ρ c) (in0_w m ρ c)).trans (?_ : @Eq EReal _ _)
  unfold Cert.Gcn.mm1
  rw [Cert.ReferenceIdeal.Dots.dot1_apply]

theorem region_one : (dat0 (F := Ideal) (V3 m ρ) c).arrAt 2 cfg0.N
    = Cert.Gcn.mm1 (F := Ideal) (m ((c : Thread nD τ).loc main_arg0)) (m ((c : Thread nD τ).loc main_arg2)) := by
  show ((dat0 (F := Ideal) (V3 m ρ) c).arrAt 2 cfg0.N : S100000x16.Idx → EReal) = _
  refine funext fun j => ?_
  obtain ⟨p, q, rfl⟩ : ∃ (p : Fin 100000) (q : Fin 16), j = ValueIdx.ix2 p q := ⟨j 0, j 1, ValueIdx.eq_ix2 j⟩
  exact region_one_apply m ρ c p q

/-- The idealized kernel program's result buffer is the network of the six argument arrays. -/
theorem whole : W7 m ρ c (Proc.devRef .tc main_v76)
    = Cert.Gcn.model (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
  whole_of m ρ c (region_one m ρ c) (region_two m ρ c)

end Cert.KernelIdeal.Whole

end
-- ==== Proof.RefValue.lean ====
/-
  The reference program's result is the network of module `Gcn` at the host's two matrix products: the composed
  term its run ends at is that function's body written out, the degree, the inverse square roots and the edge
  weights recomputed at each use.
-/
import proofs.«160368_j5574867550498_1_alg».proof.Proof.RefRun
import proofs.«160368_j5574867550498_1_alg».proof.Proof.Gcn

set_option maxRecDepth 16384

noncomputable section

namespace Cert.ReferenceIdeal.Whole

open Cert.ReferenceIdeal Cert.ReferenceIdeal.Gen
open Idealize.ShloMosaic Idealize.ShloMosaic.TcCoe Idealize.SL.Sem

variable {F : FTy → Type} [FloatOps F]

set_option maxHeartbeats 4000000 in
/-- The run's composed term, folded into the named functions. -/
theorem result_eq (m : (ℓ : Loc nD τ sig) → Buf (Elt F) ℓ) (c : Dev nD) :
    Cert.ReferenceIdeal.RunP.res_main_v107 (F := F) m c
      = Cert.Gcn.model (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v107
  rfl

end Cert.ReferenceIdeal.Whole

end
-- ==== Proof.lean ====
/-
  A two-layer graph convolution, `propagate (relu (propagate (x · W1) + b1) · W2) + b2`, computed two ways.

  `propagate h` gathers the rows of `h` at the edges' sources, scales each by `deg[src]^(-1/2) · deg[dst]^(-1/2)` (the
  degrees counted with one self loop per node) and sums them into the edges' targets. The reference does all of it on
  the host. The kernel program does the graph part on the host in the same operations, computing the edge weights
  once instead of once per layer, and the two dense stages in tiled kernels: `x · W1` in 20 row blocks of 5000, and
  `relu (agg + b1) · W2` in 10 row blocks of 10000, each block a matrix product into a zero accumulator.
  On the extended reals a change of float format is the identity and a block's product at `(p, q)` is the sum over the
  contracted axis of the products of the entries, which is what the host's product is at `(p, q)`; the row blocks tile
  the output arrays. So each region's output array IS the host's product of its input arrays, and with that the two
  programs' results are the same composition of host operations of the six argument arrays (module `Gcn`). No
  algebraic law beyond that is used, and the precondition is never opened.
  The idealization rewrote nothing, so `preserves` is trivial; the kernel programs' frames are the generated ones, the
  reference's frame is its run with the result dropped.
-/
import proofs.«160368_j5574867550498_1_alg».proof.Defs
import proofs.«160368_j5574867550498_1_alg».proof.Proof.Gen.Kernel
import proofs.«160368_j5574867550498_1_alg».proof.Proof.Gen.Kernel.Skeleton
import proofs.«160368_j5574867550498_1_alg».proof.Proof.Gen.Kernel.Launch
import proofs.«160368_j5574867550498_1_alg».proof.Proof.Gen.Kernel.Points
import proofs.«160368_j5574867550498_1_alg».proof.Proof.Gen.Kernel.Frame
import proofs.«160368_j5574867550498_1_alg».proof.Proof.Gen.KernelIdeal
import proofs.«160368_j5574867550498_1_alg».proof.Proof.Gen.KernelIdeal.Skeleton
import proofs.«160368_j5574867550498_1_alg».proof.Proof.Gen.KernelIdeal.Launch
import proofs.«160368_j5574867550498_1_alg».proof.Proof.Gen.KernelIdeal.Points
import proofs.«160368_j5574867550498_1_alg».proof.Proof.Gen.KernelIdeal.Frame
import proofs.«160368_j5574867550498_1_alg».proof.Proof.Gen.ReferenceIdeal
import proofs.«160368_j5574867550498_1_alg».proof.Proof.Gen.Pre_finite_inputs
import proofs.«160368_j5574867550498_1_alg».proof.Proof.KernelRun
import proofs.«160368_j5574867550498_1_alg».proof.Proof.KernelValue
import proofs.«160368_j5574867550498_1_alg».proof.Proof.RefRun
import proofs.«160368_j5574867550498_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end at the network of module `Gcn` applied to the argument arrays, which agree. -/
theorem algebraic : Cert.algebraic_KernelIdeal_ReferenceIdeal := by
  intro m ρ m' ρ' _ hagree
  refine ⟨fun c => Cert.Gcn.model (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.whole m ρ c), (h c).2⟩)
      (Cert.KernelIdeal.RunOut.run_out (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.Whole.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
